-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x768x1280 : Shape := ⟨4, ![16, 1, 768, 1280]⟩
abbrev S_ : Shape := ⟨0, ![]⟩

class Facts : Prop where
  bcast_S_S16x1x768x1280 : S_.BroadcastsInDim S16x1x768x1280 (![] : Fin 0 → Fin S16x1x768x1280.rank)
  reducesTo_S16x1x768x1280_S_d0_1_2_3 : S16x1x768x1280.ReducesTo [0, 1, 2, 3] S_
  h_S_ : 0 < S_.numel

variable [Facts]

def fn {F : FTy → Type} [FloatOps F] (main_arg0 : FVec F S16x1x768x1280 .f32) (main_arg1 : FVec F S16x1x768x1280 .f32) : IVec S_ 1 :=
  let main_v0 : FVec F S16x1x768x1280 .f32 := Host.absf main_arg0
  let main_cst : FVec F S_ .f32 := constant S_ .f32 0x7F800000#32
  let main_v1 : FVec F S16x1x768x1280 .f32 := broadcastInDim S16x1x768x1280 ![] bcast_S_S16x1x768x1280 main_cst
  let main_v2 : IVec S16x1x768x1280 1 := cmpf .olt main_v0 main_v1
  let main_c : IVec S_ 1 := constantI S_ 1 1#1
  let main_v3 : IVec S_ 1 := (fun x v => Host.reduce IntOp.andi x v reducesTo_S16x1x768x1280_S_d0_1_2_3 h_S_) main_v2 main_c
  let main_v4 : FVec F S16x1x768x1280 .f32 := Host.absf main_arg1
  let main_cst_0 : FVec F S_ .f32 := constant S_ .f32 0x7F800000#32
  let main_v5 : FVec F S16x1x768x1280 .f32 := broadcastInDim S16x1x768x1280 ![] bcast_S_S16x1x768x1280 main_cst_0
  let main_v6 : IVec S16x1x768x1280 1 := cmpf .olt main_v4 main_v5
  let main_c_1 : IVec S_ 1 := constantI S_ 1 1#1
  let main_v7 : IVec S_ 1 := (fun x v => Host.reduce IntOp.andi x v reducesTo_S16x1x768x1280_S_d0_1_2_3 h_S_) main_v6 main_c_1
  let main_v8 : IVec S_ 1 := andi main_v3 main_v7
  main_v8
-- ==== Kernel.lean ====
abbrev S16x1x768x1280 : Shape := ⟨4, ![16, 1, 768, 1280]⟩
abbrev S_ : Shape := ⟨0, ![]⟩
abbrev S16x1x776x1288 : Shape := ⟨4, ![16, 1, 776, 1288]⟩
abbrev S16x768x1280 : Shape := ⟨3, ![16, 768, 1280]⟩
abbrev S1x384x1280 : Shape := ⟨3, ![1, 384, 1280]⟩

abbrev nBuf : Space → Nat
  | .hbm => 15
  | .vmem => 8
  | .smem => 0
  | _ => 0

abbrev bufTy : (tb : Table) → Fin (tcTables nBuf tb) → BufTy
  | .hbm, ⟨0, _⟩ => ⟨S16x1x768x1280, .f32⟩
  | .hbm, ⟨1, _⟩ => ⟨S16x1x768x1280, .f32⟩
  | .hbm, ⟨2, _⟩ => ⟨S_, .i32⟩
  | .hbm, ⟨3, _⟩ => ⟨S_, .f32⟩
  | .hbm, ⟨4, _⟩ => ⟨S16x1x776x1288, .f32⟩
  | .hbm, ⟨5, _⟩ => ⟨S16x1x768x1280, .f32⟩
  | .hbm, ⟨6, _⟩ => ⟨S_, .i32⟩
  | .hbm, ⟨7, _⟩ => ⟨S_, .f32⟩
  | .hbm, ⟨8, _⟩ => ⟨S16x1x776x1288, .f32⟩
  | .hbm, ⟨9, _⟩ => ⟨S16x1x768x1280, .f32⟩
  | .hbm, ⟨10, _⟩ => ⟨S16x768x1280, .f32⟩
  | .hbm, ⟨11, _⟩ => ⟨S16x768x1280, .f32⟩
  | .hbm, ⟨12, _⟩ => ⟨S16x768x1280, .f32⟩
  | .hbm, ⟨13, _⟩ => ⟨S16x768x1280, .f32⟩
  | .hbm, ⟨14, _⟩ => ⟨S16x1x768x1280, .f32⟩
  | .local _ .vmem, ⟨0, _⟩ => ⟨S1x384x1280, .f32⟩
  | .local _ .vmem, ⟨1, _⟩ => ⟨S1x384x1280, .f32⟩
  | .local _ .vmem, ⟨2, _⟩ => ⟨S1x384x1280, .f32⟩
  | .local _ .vmem, ⟨3, _⟩ => ⟨S1x384x1280, .f32⟩
  | .local _ .vmem, ⟨4, _⟩ => ⟨S1x384x1280, .f32⟩
  | .local _ .vmem, ⟨5, _⟩ => ⟨S1x384x1280, .f32⟩
  | .local _ .vmem, ⟨6, _⟩ => ⟨S1x384x1280, .f32⟩
  | .local _ .vmem, ⟨7, _⟩ => ⟨S1x384x1280, .f32⟩
  | _, _ => ⟨S16x1x768x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S16x1x768x1280_S16x1x776x1288_000_000_440_440 : S16x1x768x1280.Pads (![0, 0, 4, 4] : Fin 4 → Nat) ![0, 0, 4, 4] ![0, 0, 0, 0] S16x1x776x1288
  h_S_ : 0 < S_.numel
  slices_S16x1x776x1288_S16x1x768x1280_0_0_0_0 : S16x1x776x1288.Slices ![0, 0, 0, 0] S16x1x768x1280
  slices_S16x1x776x1288_S16x1x768x1280_0_0_8_8 : S16x1x776x1288.Slices ![0, 0, 8, 8] S16x1x768x1280
  shapeCasts_S16x1x768x1280_S16x768x1280 : S16x1x768x1280.ShapeCasts S16x768x1280
  inb_S1x384x1280_S1x384x1280_0_0_0 : ∀ a, (![0, 0, 0] : Fin 3 → Nat) a + S1x384x1280.size a ≤ S1x384x1280.size a
  h_S1x384x1280 : 0 < S1x384x1280.numel
  shapeCasts_S1x384x1280_S1x384x1280 : S1x384x1280.ShapeCasts S1x384x1280
  shapeCasts_S16x768x1280_S16x1x768x1280 : S16x768x1280.ShapeCasts S16x1x768x1280
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x1280.size a ≤ S16x768x1280.size a
  hwx0_0 : ∀ i : grid0.Coords, EltTy.bits .f32 = 32 ∨ (Rect.block (s := S16x768x1280) S1x384x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x1280.size a ≤ S16x768x1280.size a
  hwx0_1 : ∀ i : grid0.Coords, EltTy.bits .f32 = 32 ∨ (Rect.block (s := S16x768x1280) S1x384x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x1280.size a ≤ S16x768x1280.size a
  hwx0_2 : ∀ i : grid0.Coords, EltTy.bits .f32 = 32 ∨ (Rect.block (s := S16x768x1280) S1x384x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384x1280.size a ≤ S16x768x1280.size a
  hwx0_3 : ∀ i : grid0.Coords, EltTy.bits .f32 = 32 ∨ (Rect.block (s := S16x768x1280) S1x384x1280.size (cc0_transform_3 i) (hinb0_3 i)).WholeWords (EltTy.packing .f32)

variable [Facts₀]

abbrev win0_0 : Pipeline.Window sig grid0 :=
  Pipeline.Window.ofSpec (Memref.whole main_v4) S1x384x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x384x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x384x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x384x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x768x1280 : Shape := ⟨4, ![16, 1, 768, 1280]⟩
abbrev S_ : Shape := ⟨0, ![]⟩
abbrev S16x1x776x1288 : Shape := ⟨4, ![16, 1, 776, 1288]⟩

abbrev nBuf : Space → Nat
  | .hbm => 28
  | .vmem => 0
  | .smem => 0
  | _ => 0

abbrev bufTy : (tb : Table) → Fin (tcTables nBuf tb) → BufTy
  | .hbm, ⟨0, _⟩ => ⟨S16x1x768x1280, .f32⟩
  | .hbm, ⟨1, _⟩ => ⟨S16x1x768x1280, .f32⟩
  | .hbm, ⟨2, _⟩ => ⟨S_, .i32⟩
  | .hbm, ⟨3, _⟩ => ⟨S_, .f32⟩
  | .hbm, ⟨4, _⟩ => ⟨S16x1x776x1288, .f32⟩
  | .hbm, ⟨5, _⟩ => ⟨S16x1x768x1280, .f32⟩
  | .hbm, ⟨6, _⟩ => ⟨S_, .i32⟩
  | .hbm, ⟨7, _⟩ => ⟨S_, .f32⟩
  | .hbm, ⟨8, _⟩ => ⟨S16x1x776x1288, .f32⟩
  | .hbm, ⟨9, _⟩ => ⟨S16x1x768x1280, .f32⟩
  | .hbm, ⟨10, _⟩ => ⟨S16x1x768x1280, .f32⟩
  | .hbm, ⟨11, _⟩ => ⟨S16x1x768x1280, .f32⟩
  | .hbm, ⟨12, _⟩ => ⟨S16x1x768x1280, .f32⟩
  | .hbm, ⟨13, _⟩ => ⟨S_, .f32⟩
  | .hbm, ⟨14, _⟩ => ⟨S16x1x768x1280, .f32⟩
  | .hbm, ⟨15, _⟩ => ⟨S16x1x768x1280, .f32⟩
  | .hbm, ⟨16, _⟩ => ⟨S16x1x768x1280, .f32⟩
  | .hbm, ⟨17, _⟩ => ⟨S_, .f32⟩
  | .hbm, ⟨18, _⟩ => ⟨S16x1x768x1280, .f32⟩
  | .hbm, ⟨19, _⟩ => ⟨S16x1x768x1280, .f32⟩
  | .hbm, ⟨20, _⟩ => ⟨S16x1x768x1280, .f32⟩
  | .hbm, ⟨21, _⟩ => ⟨S_, .f32⟩
  | .hbm, ⟨22, _⟩ => ⟨S16x1x768x1280, .f32⟩
  | .hbm, ⟨23, _⟩ => ⟨S16x1x768x1280, .f32⟩
  | .hbm, ⟨24, _⟩ => ⟨S_, .f32⟩
  | .hbm, ⟨25, _⟩ => ⟨S16x1x768x1280, .f32⟩
  | .hbm, ⟨26, _⟩ => ⟨S16x1x768x1280, .f32⟩
  | .hbm, ⟨27, _⟩ => ⟨S16x1x768x1280, .f32⟩
  | _, _ => ⟨S16x1x768x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  pads_S16x1x768x1280_S16x1x776x1288_000_000_440_440 : S16x1x768x1280.Pads (![0, 0, 4, 4] : Fin 4 → Nat) ![0, 0, 4, 4] ![0, 0, 0, 0] S16x1x776x1288
  h_S_ : 0 < S_.numel
  slices_S16x1x776x1288_S16x1x768x1280_0_0_0_0 : S16x1x776x1288.Slices ![0, 0, 0, 0] S16x1x768x1280
  slices_S16x1x776x1288_S16x1x768x1280_0_0_8_8 : S16x1x776x1288.Slices ![0, 0, 8, 8] S16x1x768x1280
  bcast_S_S16x1x768x1280 : S_.BroadcastsInDim S16x1x768x1280 (![] : Fin 0 → Fin S16x1x768x1280.rank)

variable [Facts₀]

class Facts : Prop extends Facts₀ where

variable [Facts]
-- ==== Proof.Pointwise.lean ====
/-
  The one arithmetic fact of this certificate, on the extended reals.

  At every pixel both programs blend a disparity `p` with a weight
      w = C · exp(−(a − s)² / 8),          out = (p · w + ε) / (w + ε),
  where `a` is the pixel's intensity, `s` the intensity four rows down and four columns to the right (zero past
  the border), and `C`, `ε` are two float constants that both programs spell with the same words, so their values
  never matter. The two programs differ in two spellings only: the kernel writes −d² as `0 − d²` and the quotient by
  eight as the product with `0.125`; the reference negates and divides by `8.0`. The word of `0.125` denotes exactly
  one eighth and a quotient by a nonzero real is the product with its reciprocal at the infinities too, so the two
  spellings are one function of EVERY extended real: no finiteness of the inputs is used.
-/
import Idealize.ShloMosaic.PureOps.Ideal
import Idealize.ShloMosaic.PureOps.Ideal.Laws

noncomputable section

namespace Cert.Bilateral

open Idealize.ShloMosaic

/-- The word of `0.125` denotes one eighth. -/
theorem ofBits_eighth : Ideal.ofBits .f32 0x3E000000#32 = ((1 / 8 : ℝ) : EReal) := by
  simp [Ideal.ofBits, Ideal.ieee, -EReal.coe_mul]; norm_num

/-- The word of `8.0` denotes eight. -/
theorem ofBits_eight : Ideal.ofBits .f32 0x41000000#32 = ((8 : ℝ) : EReal) := by
  simp [Ideal.ofBits, Ideal.ieee, -EReal.coe_mul]; norm_num

/-- The weight of a pixel of intensity `a` against the shifted intensity `s`: `C · exp(−(a − s)² / 8)`. -/
def weight (a s : EReal) : EReal :=
  Ideal.ofBits .f32 0x3E2D11D4#32 * Ideal.exp (Ideal.div (-((a - s) * (a - s))) ((8 : ℝ) : EReal))

/-- The blended disparity: `(p · w + ε) / (w + ε)`. -/
def blend (a s p : EReal) : EReal :=
  Ideal.div (p * weight a s + Ideal.ofBits .f32 0x2B8CBCCC#32) (weight a s + Ideal.ofBits .f32 0x2B8CBCCC#32)

/-- The kernel's spelling of the weight: `0 − d²` for the negation, the product with `0.125` for the quotient. -/
theorem weight_of_product (a s : EReal) :
    Ideal.ofBits .f32 0x3E2D11D4#32
        * Ideal.exp ((Ideal.ofBits .f32 0x00000000#32 - (a - s) * (a - s)) * Ideal.ofBits .f32 0x3E000000#32)
      = weight a s := by
  unfold weight
  rw [Ideal.ofBits_zero_f32, zero_sub, ofBits_eighth, Ideal.div_coe (by norm_num : (8 : ℝ) ≠ 0)]

/-- The reference's spelling of the weight: a negation, the quotient by the word of `8.0`. -/
theorem weight_of_quotient (a s : EReal) :
    Ideal.ofBits .f32 0x3E2D11D4#32
        * Ideal.exp (Ideal.div (-((a - s) * (a - s))) (Ideal.ofBits .f32 0x41000000#32))
      = weight a s := by
  unfold weight
  rw [ofBits_eight]

end Cert.Bilateral

end
-- ==== Proof.RefValue.lean ====
/-
  The reference's result, index by index.

  Its last stage read at a pixel is the blend (Pointwise.lean) of three numbers there: the left image, the left image
  shifted four rows down and four columns right (its zero-padded copy sliced at offset eight: stage `val_main_v3`), and the
  disparity shifted the other way (the zero-padded copy sliced at offset zero: stage `val_main_v1`). The two shifted arrays
  are left as the stages the generated module names: the kernel's host lines build them by the same two operations, so
  neither side ever reads a padded array at an index.
-/
import proofs.«135380_j65798898974996_1_alg».proof.Proof.Gen.ReferenceIdeal.Read
import proofs.«135380_j65798898974996_1_alg».proof.Proof.Pointwise

noncomputable section

namespace Cert.ReferenceIdeal.RefValue

open Cert.ReferenceIdeal Cert.ReferenceIdeal.Read Idealize.ShloMosaic Cert.Bilateral

/-- The reference's result at a pixel: the blend of the intensity, the shifted intensity and the shifted disparity there. -/
theorem result_apply (x0 x1 : (⟨S16x1x768x1280, .f32⟩ : BufTy).Contents (Elt Ideal)) (i : S16x1x768x1280.Idx) :
    val_main_v17 (F := Ideal) x0 x1 i
      = blend (x0 i) (val_main_v3 (F := Ideal) x0 i) (val_main_v1 (F := Ideal) x1 i) := by
  simp only [val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_cst_apply, val_main_cst_1_apply,
    val_main_cst_2_apply, val_main_cst_3_apply]
  simp only [Ideal.hostDivf_def, Ideal.addf_def, Ideal.mulf_def, Ideal.hostUnary_exp_def, Ideal.hostNegf_def,
    Ideal.negf_def, Ideal.subf_def, Ideal.ofBits_def]
  unfold blend
  rw [weight_of_quotient]

end Cert.ReferenceIdeal.RefValue

end
-- ==== Proof.Payload.lean ====
/-
  The kernel body's arithmetic, index by index.

  The body loads three whole blocks — intensities, shifted intensities, shifted disparities —, computes with
  pointwise vector operations only, and stores one block. So the stored value at a block index is a function of the three
  loads AT THAT INDEX: the blend of Pointwise.lean, here in the kernel's spelling (`0 − d²`, the product with `0.125`).
-/
import proofs.«135380_j65798898974996_1_alg».proof.Proof.Gen.KernelIdeal.Skeleton
import proofs.«135380_j65798898974996_1_alg».proof.Proof.Pointwise
import Idealize.ShloMosaic.Lib.Pipeline.Value

noncomputable section

namespace Cert.KernelIdeal.Body

open Cert.KernelIdeal Cert.KernelIdeal.Gen Idealize.ShloMosaic Cert.Bilateral

/-- The stored block at an index is the blend of the three loaded blocks at that index. -/
theorem payload_apply (x0 x1 x2 : Vec Ideal S1x384x1280 .f32) (j : S1x384x1280.Idx) :
    k0_pay1 (F := Ideal) x0 x1 x2 j = blend (x0 j) (x1 j) (x2 j) := by
  unfold k0_pay1
  simp only [shapeCast_self]
  show Ideal.div (x2 j * (Ideal.ofBits .f32 0x3E2D11D4#32
          * Ideal.exp ((Ideal.ofBits .f32 0x00000000#32 - (x0 j - x1 j) * (x0 j - x1 j)) * Ideal.ofBits .f32 0x3E000000#32))
        + Ideal.ofBits .f32 0x2B8CBCCC#32)
      (Ideal.ofBits .f32 0x3E2D11D4#32
          * Ideal.exp ((Ideal.ofBits .f32 0x00000000#32 - (x0 j - x1 j) * (x0 j - x1 j)) * Ideal.ofBits .f32 0x3E000000#32)
        + Ideal.ofBits .f32 0x2B8CBCCC#32) = _
  unfold blend
  rw [weight_of_product]

end Cert.KernelIdeal.Body

end
-- ==== Proof.Blocks.lean ====
/-
  From the blocks to the whole array.

  The grid has 16 × 2 points; point (b, h) stages block (b, h, 0) of each of the four [16, 768, 1280] arrays — one image,
  rows 384·h … 384·h + 383, every column — and the four index maps are the same map. The body's result at a block index is
  the blend of its three loads there (Payload.lean), and each load at a block index is its array at the SAME array index
  as the output's, so what a point writes back is its block of ONE function of the three input arrays: their blend, index
  by index. The 32 blocks tile the output array (row `r` of image `b` lies in the block of point (b, r / 384)), so after the
  run the array is that function.
-/
import proofs.«135380_j65798898974996_1_alg».proof.Proof.Gen.KernelIdeal.Frame
import proofs.«135380_j65798898974996_1_alg».proof.Proof.Payload
import Idealize.ShloMosaic.Lib.Pipeline.Value

set_option maxRecDepth 16384

noncomputable section

namespace Cert.KernelIdeal.Blocks

open Cert.KernelIdeal Cert.KernelIdeal.Gen Cert.KernelIdeal.Body Cert.Bilateral
open Idealize.ShloMosaic Idealize.ShloMosaic.TcCoe Idealize.SL.Sem
open Idealize.ShloMosaic.Pipeline (Dat)

variable (m : (ℓ : Loc nD τ sig) → Buf (Elt Ideal) ℓ)

/-- The body's rectangles sit at offset zero on every axis. -/
theorem offsets_zero : (![0, 0, 0] : Fin 3 → Nat) = fun _ => 0 := funext fun a => by fin_cases a <;> rfl

/-- The blend of three arrays of the kernel's shape, index by index. -/
abbrev blend3 (a s p : S16x768x1280.Idx → Elt Ideal .f32) : S16x768x1280.Idx → Elt Ideal .f32 :=
  fun i => blend (a i) (s i) (p i)

/-- The stored block as one function of the three loaded blocks. -/
theorem payload_eq (x0 x1 x2 : Vec Ideal S1x384x1280 .f32) :
    k0_pay1 (F := Ideal) x0 x1 x2 = fun j => blend (x0 j) (x1 j) (x2 j) :=
  funext (payload_apply x0 x1 x2)

/-- The four index maps agree at every point, and the output's block index stays inside 16 × 2 × 1. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = win0_3.index t (2 : Fin 3)
    ∧ win0_1.index t (0 : Fin 3) = win0_3.index t (0 : Fin 3)
    ∧ win0_1.index t (1 : Fin 3) = win0_3.index t (1 : Fin 3)
    ∧ win0_1.index t (2 : Fin 3) = win0_3.index t (2 : Fin 3)
    ∧ win0_2.index t (0 : Fin 3) = win0_3.index t (0 : Fin 3)
    ∧ win0_2.index t (1 : Fin 3) = win0_3.index t (1 : Fin 3)
    ∧ win0_2.index t (2 : Fin 3) = win0_3.index t (2 : Fin 3) :=
  (by decide +kernel : ∀ t : Fin grid0.N, _)

/-- Every block (b, h, 0) is some point's. -/
theorem index_onto : ∀ (b : Fin 16) (h : Fin 2), ∃ t : Fin cfg0.N, win0_3.index t = ![b.val, h.val, 0] :=
  (by decide +kernel : ∀ (b : Fin 16) (h : Fin 2), ∃ t : Fin grid0.N, win0_3.index t = ![b.val, h.val, 0])

/-- Input window 0's block at point `t`, read out of ANY array of the kernel's shape at a block index, is the array at the
    index whose coordinates are the OUTPUT block's offsets plus the block index's: the two index maps agree. -/
theorem read0 (t : Fin cfg0.N) (A : S16x768x1280.Idx → Elt Ideal .f32) (x : S1x384x1280.Idx) (k : S16x768x1280.Idx)
    (h0 : (k 0).val = win0_3.index t (0 : Fin 3) * 1 + 1 * (x 0).val)
    (h1 : (k 1).val = win0_3.index t (1 : Fin 3) * 384 + 1 * (x 1).val)
    (h2 : (k 2).val = win0_3.index t (2 : Fin 3) * 1280 + 1 * (x 2).val) :
    (((cfg0.win 0).blk t).view.read (Elt Ideal) A : Vec Ideal S1x384x1280 .f32) x = A k := by
  obtain ⟨e00, e01, e02, e10, e11, e12, e20, e21, e22⟩ := index_facts t
  rw [View.read_apply]
  refine congrArg A (funext fun a => Fin.ext ?_)
  match a with
  | ⟨0, _⟩ => show win0_0.index t (0 : Fin 3) * 1 + 1 * (x 0).val = (k 0).val; omega
  | ⟨1, _⟩ => show win0_0.index t (1 : Fin 3) * 384 + 1 * (x 1).val = (k 1).val; omega
  | ⟨2, _⟩ => show win0_0.index t (2 : Fin 3) * 1280 + 1 * (x 2).val = (k 2).val; omega

/-- So input window 0's block as the region finds its array, at a block index, is that array at the output's index. -/
theorem block0_apply (c : Dev nD) (t : Fin cfg0.N) (x : S1x384x1280.Idx) (k : S16x768x1280.Idx)
    (h0 : (k 0).val = win0_3.index t (0 : Fin 3) * 1 + 1 * (x 0).val)
    (h1 : (k 1).val = win0_3.index t (1 : Fin 3) * 384 + 1 * (x 1).val)
    (h2 : (k 2).val = win0_3.index t (2 : Fin 3) * 1280 + 1 * (x 2).val) :
    (iblk m c 0 t : Vec Ideal S1x384x1280 .f32) x = (V m c main_v4 : S16x768x1280.Idx → Elt Ideal .f32) k := by
  unfold iblk
  exact read0 t _ x k h0 h1 h2

/-- Input window 1's block at point `t`, read out of ANY array of the kernel's shape at a block index, is the array at the
    index whose coordinates are the OUTPUT block's offsets plus the block index's: the two index maps agree. -/
theorem read1 (t : Fin cfg0.N) (A : S16x768x1280.Idx → Elt Ideal .f32) (x : S1x384x1280.Idx) (k : S16x768x1280.Idx)
    (h0 : (k 0).val = win0_3.index t (0 : Fin 3) * 1 + 1 * (x 0).val)
    (h1 : (k 1).val = win0_3.index t (1 : Fin 3) * 384 + 1 * (x 1).val)
    (h2 : (k 2).val = win0_3.index t (2 : Fin 3) * 1280 + 1 * (x 2).val) :
    (((cfg0.win 1).blk t).view.read (Elt Ideal) A : Vec Ideal S1x384x1280 .f32) x = A k := by
  obtain ⟨e00, e01, e02, e10, e11, e12, e20, e21, e22⟩ := index_facts t
  rw [View.read_apply]
  refine congrArg A (funext fun a => Fin.ext ?_)
  match a with
  | ⟨0, _⟩ => show win0_1.index t (0 : Fin 3) * 1 + 1 * (x 0).val = (k 0).val; omega
  | ⟨1, _⟩ => show win0_1.index t (1 : Fin 3) * 384 + 1 * (x 1).val = (k 1).val; omega
  | ⟨2, _⟩ => show win0_1.index t (2 : Fin 3) * 1280 + 1 * (x 2).val = (k 2).val; omega

/-- So input window 1's block as the region finds its array, at a block index, is that array at the output's index. -/
theorem block1_apply (c : Dev nD) (t : Fin cfg0.N) (x : S1x384x1280.Idx) (k : S16x768x1280.Idx)
    (h0 : (k 0).val = win0_3.index t (0 : Fin 3) * 1 + 1 * (x 0).val)
    (h1 : (k 1).val = win0_3.index t (1 : Fin 3) * 384 + 1 * (x 1).val)
    (h2 : (k 2).val = win0_3.index t (2 : Fin 3) * 1280 + 1 * (x 2).val) :
    (iblk m c 1 t : Vec Ideal S1x384x1280 .f32) x = (V m c main_v5 : S16x768x1280.Idx → Elt Ideal .f32) k := by
  unfold iblk
  exact read1 t _ x k h0 h1 h2

/-- Input window 2's block at point `t`, read out of ANY array of the kernel's shape at a block index, is the array at the
    index whose coordinates are the OUTPUT block's offsets plus the block index's: the two index maps agree. -/
theorem read2 (t : Fin cfg0.N) (A : S16x768x1280.Idx → Elt Ideal .f32) (x : S1x384x1280.Idx) (k : S16x768x1280.Idx)
    (h0 : (k 0).val = win0_3.index t (0 : Fin 3) * 1 + 1 * (x 0).val)
    (h1 : (k 1).val = win0_3.index t (1 : Fin 3) * 384 + 1 * (x 1).val)
    (h2 : (k 2).val = win0_3.index t (2 : Fin 3) * 1280 + 1 * (x 2).val) :
    (((cfg0.win 2).blk t).view.read (Elt Ideal) A : Vec Ideal S1x384x1280 .f32) x = A k := by
  obtain ⟨e00, e01, e02, e10, e11, e12, e20, e21, e22⟩ := index_facts t
  rw [View.read_apply]
  refine congrArg A (funext fun a => Fin.ext ?_)
  match a with
  | ⟨0, _⟩ => show win0_2.index t (0 : Fin 3) * 1 + 1 * (x 0).val = (k 0).val; omega
  | ⟨1, _⟩ => show win0_2.index t (1 : Fin 3) * 384 + 1 * (x 1).val = (k 1).val; omega
  | ⟨2, _⟩ => show win0_2.index t (2 : Fin 3) * 1280 + 1 * (x 2).val = (k 2).val; omega

/-- So input window 2's block as the region finds its array, at a block index, is that array at the output's index. -/
theorem block2_apply (c : Dev nD) (t : Fin cfg0.N) (x : S1x384x1280.Idx) (k : S16x768x1280.Idx)
    (h0 : (k 0).val = win0_3.index t (0 : Fin 3) * 1 + 1 * (x 0).val)
    (h1 : (k 1).val = win0_3.index t (1 : Fin 3) * 384 + 1 * (x 1).val)
    (h2 : (k 2).val = win0_3.index t (2 : Fin 3) * 1280 + 1 * (x 2).val) :
    (iblk m c 2 t : Vec Ideal S1x384x1280 .f32) x = (V m c main_v6 : S16x768x1280.Idx → Elt Ideal .f32) k := by
  unfold iblk
  exact read2 t _ x k h0 h1 h2

/-- What point `t` writes back is block `t` of the blend of the three input arrays as the region finds them. -/
theorem flushed_eq (c : Dev nD) (t : Fin cfg0.N) :
    (dats m 0 c).flushed 3 t
      = ((cfg0.win 3).blk t).view.read (Elt Ideal) (blend3 (V m c main_v4) (V m c main_v5) (V m c main_v6)) := by
  show (cfg0.win 3).cut (grid0.coords t) ((dats m 0 c).after 3 t) = _
  rw [after0_3]
  unfold out0_3
  rw [View.canon_unit_zero offsets_zero]
  simp only [View.ld_unit_zero (S := S1x384x1280) offsets_zero]
  rw [payload_eq]
  funext j
  rw [View.read_apply]
  show blend (iblk m c 0 t _) (iblk m c 1 t _) (iblk m c 2 t _)
    = blend (V m c main_v4 _) (V m c main_v5 _) (V m c main_v6 _)
  refine congr (congr (congrArg blend ?_) ?_) ?_
  · exact block0_apply m c t _ _ rfl rfl rfl
  · exact block1_apply m c t _ _ rfl rfl rfl
  · exact block2_apply m c t _ _ rfl rfl rfl

/-- An index of the output array is in point `t`'s block iff each coordinate is in the block's range on its axis. -/
theorem mem_block (t : Fin cfg0.N) (i : S16x768x1280.Idx) :
    i ∈ ((cfg0.win 3).blk t).view.set
      ↔ ∀ a : Fin 3, win0_3.index t a * S1x384x1280.size a ≤ (i a).val
          ∧ (i a).val < win0_3.index t a * S1x384x1280.size a + S1x384x1280.size a := by
  show i ∈ ((View.whole main_v7).slice (win0_3.rect t)).set ↔ _
  rw [View.set_slice_whole, Rect.mem_set_unit]
  exact Iff.rfl

/-- The blocks tile the output array: index (b, r, x) is in the block of the point whose block index is (b, r / 384, 0). -/
theorem cover (i : S16x768x1280.Idx) :
    ∃ t : Fin cfg0.N, (cfg0.win 3).flush t = true ∧ i ∈ ((cfg0.win 3).blk t).view.set := by
  have hi0 : (i 0).val < 16 := (i 0).isLt
  have hi1 : (i 1).val < 768 := (i 1).isLt
  have hi2 : (i 2).val < 1280 := (i 2).isLt
  obtain ⟨t, ht⟩ := index_onto ⟨(i 0).val, hi0⟩ ⟨(i 1).val / 384, by omega⟩
  have q0 : win0_3.index t (0 : Fin 3) = (i 0).val := congrFun ht 0
  have q1 : win0_3.index t (1 : Fin 3) = (i 1).val / 384 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 384 ≤ (i 1).val ∧ (i 1).val < win0_3.index t (1 : Fin 3) * 384 + 384; omega
  | ⟨2, _⟩ => show win0_3.index t (2 : Fin 3) * 1280 ≤ (i 2).val ∧ (i 2).val < win0_3.index t (2 : Fin 3) * 1280 + 1280; omega

/-- The output array after the run: the blend of the three input arrays as the region finds them. -/
theorem final (c : Dev nD) :
    (dats m 0 c).arrAt 3 cfg0.N = blend3 (V m c main_v4) (V m c main_v5) (V m c main_v6) :=
  (dats m 0 c).arrAt_eq_of_cover 3 _ (fun t _ => flushed_eq m c t) cover

end Cert.KernelIdeal.Blocks

end
-- ==== Proof.HostSide.lean ====
/-
  The host lines around the region.

  Before the region @main builds, from the two arguments (the left image `x0` and the disparity `x1`, both [16, 1, 768, 1280]):
  each zero-padded by four on both sides of the two image axes; the padded image sliced at offset (8, 8) — the image shifted
  four rows and four columns TOWARD the origin, `y[r, c] = x0[r + 4, c + 4]`, zero past the border; the padded disparity sliced
  at offset (0, 0) — shifted AWAY from the origin, `y[r, c] = x1[r − 4, c − 4]`; and the image and the two shifted arrays
  with the unit channel axis dropped, [16, 768, 1280]: these three are what the region's three input windows stage. After the
  region one line puts the channel axis back on the region's output. Here: the three arrays as the region finds them, and the
  result buffer after the last line, each as that term of the arguments. The padded and sliced arrays are never read at an
  index: the reference builds its own by the same two operations.
-/
import proofs.«135380_j65798898974996_1_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- An array zero-padded by four on both sides of its two image axes. -/
def padded (x : S16x1x768x1280.Idx → Elt Ideal .f32) : S16x1x776x1288.Idx → Elt Ideal .f32 :=
  pad S16x1x776x1288 ![0, 0, 4, 4] ![0, 0, 4, 4] ![0, 0, 0, 0] x (sitofp (F := Ideal) .f32 (constantI S_ 32 0#32))
    pads_S16x1x768x1280_S16x1x776x1288_000_000_440_440 h_S_

/-- The array shifted four rows and four columns toward the origin, zero past the border. -/
def towardOrigin (x : S16x1x768x1280.Idx → Elt Ideal .f32) : S16x1x768x1280.Idx → Elt Ideal .f32 :=
  extractStridedSlice S16x1x768x1280 ![0, 0, 8, 8] (padded x) slices_S16x1x776x1288_S16x1x768x1280_0_0_8_8

/-- The array shifted four rows and four columns away from the origin, zero past the border. -/
def awayFromOrigin (x : S16x1x768x1280.Idx → Elt Ideal .f32) : S16x1x768x1280.Idx → Elt Ideal .f32 :=
  extractStridedSlice S16x1x768x1280 ![0, 0, 0, 0] (padded x) slices_S16x1x776x1288_S16x1x768x1280_0_0_0_0

/-- The first input window's array as the region finds it: the left image without its channel axis. -/
theorem entry_image (c : Dev nD) :
    (V m c main_v4 : S16x768x1280.Idx → Elt Ideal .f32)
      = shapeCast S16x768x1280 (m ((c : Thread nD τ).loc main_arg0)) shapeCasts_S16x1x768x1280_S16x768x1280 := by
  dsimp only [V, V0]
  simp only [hostOps0, hostOps0_1, hostOps0_2, hostOps0_3, hostOps0_4, List.flatten_cons, List.flatten_nil,
    List.append_nil, List.cons_append, List.nil_append]
  after_results
  rfl

/-- The second: the left image shifted toward the origin, without its channel axis. -/
theorem entry_shifted_image (c : Dev nD) :
    (V m c main_v5 : S16x768x1280.Idx → Elt Ideal .f32)
      = shapeCast S16x768x1280 (towardOrigin (m ((c : Thread nD τ).loc main_arg0)))
          shapeCasts_S16x1x768x1280_S16x768x1280 := by
  dsimp only [V, V0]
  simp only [hostOps0, hostOps0_1, hostOps0_2, hostOps0_3, hostOps0_4, List.flatten_cons, List.flatten_nil,
    List.append_nil, List.cons_append, List.nil_append]
  after_results
  rfl

/-- The third: the disparity shifted away from the origin, without its channel axis. -/
theorem entry_shifted_disparity (c : Dev nD) :
    (V m c main_v6 : S16x768x1280.Idx → Elt Ideal .f32)
      = shapeCast S16x768x1280 (awayFromOrigin (m ((c : Thread nD τ).loc main_arg1)))
          shapeCasts_S16x1x768x1280_S16x768x1280 := by
  dsimp only [V, V0]
  simp only [hostOps0, hostOps0_1, hostOps0_2, hostOps0_3, hostOps0_4, List.flatten_cons, List.flatten_nil,
    List.append_nil, List.cons_append, List.nil_append]
  after_results
  rfl

/-- The result buffer after the line that follows the region: the region's output array with the channel axis put back. -/
theorem result_buffer (c : Dev nD) :
    (Pipeline.afterTail₀ cfgs (dats m) 0 (V0 m) [hostOps1] c main_v8 : S16x1x768x1280.Idx → Elt Ideal .f32)
      = shapeCast S16x1x768x1280 ((dats m 0 c).arrAt 3 cfg0.N) shapeCasts_S16x768x1280_S16x1x768x1280 := by
  unfold Pipeline.afterTail₀
  show StableHlo.after hostOps1 _ (Proc.devRef .tc main_v8) = _
  after_results
  exact congrArg (fun X => shapeCast S16x1x768x1280 X shapeCasts_S16x768x1280_S16x1x768x1280)
    (Pipeline.withArrays_arr spec0 launch0.win.arr_inj c (V0 m c) (fun w => (dats m 0 c).arrAt w cfg0.N) 3)

end Cert.KernelIdeal.Host

end
-- ==== Proof.KernelValue.lean ====
/-
  The kernel's run, read: its result as one function of its two arguments.

  The region's output array is the blend, index by index, of its three input arrays (Blocks.lean); those are the left image
  and the two shifted arrays with the channel axis dropped, and the result buffer is the output with the channel axis put back
  (HostSide.lean). Dropping an axis and putting it back moves no element, and a blend taken index by index commutes with any
  re-indexing, so the result at a pixel is the blend of the image, the image shifted toward the origin and the disparity
  shifted away from it, at that pixel.
-/
import proofs.«135380_j65798898974996_1_alg».proof.Proof.Blocks
import proofs.«135380_j65798898974996_1_alg».proof.Proof.HostSide

noncomputable section

namespace Cert.KernelIdeal.Result

open Cert.KernelIdeal Cert.KernelIdeal.Gen Cert.KernelIdeal.Host Cert.KernelIdeal.Blocks Cert.Bilateral
open Idealize.ShloMosaic Idealize.ShloMosaic.TcCoe Idealize.SL.Sem

variable (m : (ℓ : Loc nD τ sig) → Buf (Elt Ideal) ℓ) (ρ : Dev nD → PrngReg)

/-- The filtered disparity as a function of the left image `x0` and the disparity `x1`. -/
def filtered (x0 x1 : S16x1x768x1280.Idx → Elt Ideal .f32) : S16x1x768x1280.Idx → Elt Ideal .f32 :=
  fun i => blend (x0 i) (towardOrigin x0 i) (awayFromOrigin x1 i)

/-- A blend taken index by index commutes with a change of shape: re-indexing the blend re-indexes its three arrays. -/
theorem shapeCast_blend {s t : Shape} (a b p : s.Idx → EReal) (h : s.ShapeCasts t) :
    shapeCast t (fun j => blend (a j) (b j) (p j)) h
      = fun i => blend (shapeCast t a h i) (shapeCast t b h i) (shapeCast t p h i) := rfl

/-- The result buffer after the run is the filtered disparity of the arguments. -/
theorem result_eq (c : Dev nD) :
    (Pipeline.afterTail₀ cfgs (dats m) 0 (V0 m) [hostOps1] c main_v8 : S16x1x768x1280.Idx → Elt Ideal .f32)
      = filtered (m ((c : Thread nD τ).loc main_arg0)) (m ((c : Thread nD τ).loc main_arg1)) := by
  rw [result_buffer, Blocks.final, entry_image, entry_shifted_image, entry_shifted_disparity]
  refine (shapeCast_blend _ _ _ _).trans ?_
  funext i
  show blend _ _ _ = blend _ _ _
  refine congr (congr (congrArg blend ?_) ?_) ?_
  · exact congrFun (shapeCast_shapeCast _ _ _) i
  · exact congrFun (shapeCast_shapeCast _ _ _) i
  · exact congrFun (shapeCast_shapeCast _ _ _) i

/-- Every weakly fair execution of the idealized kernel terminates with the result buffer at the filtered disparity of
    the arguments and the arguments unchanged. -/
theorem run : θ_run defs (onTc (τ := τ) (main (F := Ideal))) ⟨m, fun _ => 0, ρ⟩ fun r => ∀ c : Dev nD,
      r.2.mem ((c.tc : Thread nD τ).loc main_v8)
        = filtered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v8 (Pipeline.mem_restRefs_of main_v8 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.lean ====
/-
  The bilateral disparity filter, kernel against reference, on the extended reals.

  Both programs take a left image `x0` and a disparity `x1`, [16, 1, 768, 1280], and return at every pixel
      (p · w + ε) / (w + ε),      w = C · exp(−(a − s)² / 8),
  where `a` is the image there, `s` the image four rows and four columns further on (zero past the border) and `p` the
  disparity four rows and four columns back (zero before the border). Both build `s` and `p` on the host by the same
  zero-padding and slicing of the arguments; the kernel then drops the unit channel axis, runs the arithmetic block by
  block over a 16 × 2 grid (one image, half its rows, per point) and puts the axis back, where the reference runs it on
  whole arrays. The arithmetic differs in two spellings — `0 − d²` for `−d²`, the product with `0.125` for the quotient
  by `8.0` — that agree on every extended real (Proof/Pointwise.lean), so the equality needs no finiteness of the inputs.

  The frames of the two kernel programs are the generated ones; the reference's frame is its generated run with the
  result dropped; the idealization rewrote nothing, so `preserves` is `True`. For `algebraic`, both runs end with their
  result at ONE term of the arguments: the kernel's by Proof/KernelValue.lean (the region's blocks tile its output array:
  Proof/Blocks.lean; the host lines around it: Proof/HostSide.lean; the body's arithmetic: Proof/Payload.lean), the
  reference's by Proof/RefValue.lean over its generated run read one operation at a time.
-/
import proofs.«135380_j65798898974996_1_alg».proof.Defs
import proofs.«135380_j65798898974996_1_alg».proof.Proof.Gen.Kernel
import proofs.«135380_j65798898974996_1_alg».proof.Proof.Gen.Kernel.Skeleton
import proofs.«135380_j65798898974996_1_alg».proof.Proof.Gen.Kernel.Launch
import proofs.«135380_j65798898974996_1_alg».proof.Proof.Gen.Kernel.Points
import proofs.«135380_j65798898974996_1_alg».proof.Proof.Gen.Kernel.Frame
import proofs.«135380_j65798898974996_1_alg».proof.Proof.Gen.KernelIdeal
import proofs.«135380_j65798898974996_1_alg».proof.Proof.Gen.KernelIdeal.Skeleton
import proofs.«135380_j65798898974996_1_alg».proof.Proof.Gen.KernelIdeal.Launch
import proofs.«135380_j65798898974996_1_alg».proof.Proof.Gen.KernelIdeal.Points
import proofs.«135380_j65798898974996_1_alg».proof.Proof.Gen.KernelIdeal.Frame
import proofs.«135380_j65798898974996_1_alg».proof.Proof.Gen.ReferenceIdeal
import proofs.«135380_j65798898974996_1_alg».proof.Proof.Gen.Pre_finite_inputs
import proofs.«135380_j65798898974996_1_alg».proof.Proof.Gen.ReferenceIdeal.Run
import proofs.«135380_j65798898974996_1_alg».proof.Proof.Gen.ReferenceIdeal.Read
import proofs.«135380_j65798898974996_1_alg».proof.Proof.RefValue
import proofs.«135380_j65798898974996_1_alg».proof.Proof.KernelValue
import Idealize.ShloMosaic.Adequacy
import Idealize.ShloMosaic.Init

noncomputable section

namespace Cert.Proof

open Idealize.ShloMosaic Idealize.ShloMosaic.TcCoe Idealize.SL.Sem

/-- The reference's shifted image is the kernel's: the same padding and slicing of the same argument. -/
theorem shifted_image_eq (x0 : Cert.KernelIdeal.S16x1x768x1280.Idx → Elt Ideal .f32) :
    Cert.ReferenceIdeal.Read.val_main_v3 (F := Ideal) x0 = Cert.KernelIdeal.Host.towardOrigin x0 := rfl

/-- The reference's shifted disparity is the kernel's. -/
theorem shifted_disparity_eq (x1 : Cert.KernelIdeal.S16x1x768x1280.Idx → Elt Ideal .f32) :
    Cert.ReferenceIdeal.Read.val_main_v1 (F := Ideal) x1 = Cert.KernelIdeal.Host.awayFromOrigin x1 := rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result buffer ends at the filtered disparity of its arguments and the
    reference's at the blend, pixel by pixel, of the same three arrays: one function. -/
theorem algebraic : Cert.algebraic_KernelIdeal_ReferenceIdeal := by
  intro m ρ m' ρ' _ hagree
  refine ⟨fun c => Cert.KernelIdeal.Result.filtered
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  rw [Cert.ReferenceIdeal.RefValue.result_apply, shifted_image_eq, shifted_disparity_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
